-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S256x1024 : Shape := ⟨2, ![256, 1024]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S256x512 .f32) (main_arg1 : FVec F S256x1024 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  main_v8
-- ==== Kernel.lean ====
abbrev S256x512 : Shape := ⟨2, ![256, 512]⟩
abbrev S256x1024 : Shape := ⟨2, ![256, 1024]⟩
abbrev S256x1536 : Shape := ⟨2, ![256, 1536]⟩
abbrev S32x512 : Shape := ⟨2, ![32, 512]⟩
abbrev S32x1024 : Shape := ⟨2, ![32, 1024]⟩
abbrev S32x1536 : Shape := ⟨2, ![32, 1536]⟩
abbrev S32 : Shape := ⟨1, ![32]⟩
abbrev S32x1 : Shape := ⟨2, ![32, 1]⟩

abbrev nBuf : Space → Nat
  | .hbm => 3
  | .vmem => 6
  | .smem => 0
  | _ => 0

abbrev bufTy : (tb : Table) → Fin (tcTables nBuf tb) → BufTy
  | .hbm, ⟨0, _⟩ => ⟨S256x512, .f32⟩
  | .hbm, ⟨1, _⟩ => ⟨S256x1024, .f32⟩
  | .hbm, ⟨2, _⟩ => ⟨S256x1536, .f32⟩
  | .local _ .vmem, ⟨0, _⟩ => ⟨S32x512, .f32⟩
  | .local _ .vmem, ⟨1, _⟩ => ⟨S32x512, .f32⟩
  | .local _ .vmem, ⟨2, _⟩ => ⟨S32x1024, .f32⟩
  | .local _ .vmem, ⟨3, _⟩ => ⟨S32x1024, .f32⟩
  | .local _ .vmem, ⟨4, _⟩ => ⟨S32x1536, .f32⟩
  | .local _ .vmem, ⟨5, _⟩ => ⟨S32x1536, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S32x512_S32x512_0_0 : ∀ a, (![0, 0] : Fin 2 → Nat) a + S32x512.size a ≤ S32x512.size a
  h_S32x512 : 0 < S32x512.numel
  inb_S32x1024_S32x1024_0_0 : ∀ a, (![0, 0] : Fin 2 → Nat) a + S32x1024.size a ≤ S32x1024.size a
  h_S32x1024 : 0 < S32x1024.numel
  reduces_S32x512_S32 : S32x512.Reduces [1] S32
  shapeCasts_S32_S32x1 : S32.ShapeCasts S32x1
  reduces_S32x1024_S32 : S32x1024.Reduces [1] S32
  broadcasts_S32x1_S32x512 : S32x1.Broadcasts S32x512
  broadcasts_S32x1_S32x1024 : S32x1.Broadcasts S32x1024
  inb_S32x1536_S32x512_0_0 : ∀ a, (![0, 0] : Fin 2 → Nat) a + S32x512.size a ≤ S32x1536.size a
  inb_S32x1536_S32x1024_0_512 : ∀ a, (![0, 512] : Fin 2 → Nat) a + S32x1024.size a ≤ S32x1536.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S256x512.size a
  hwx0_0 : ∀ i : grid0.Coords, EltTy.bits .f32 = 32 ∨ (Rect.block (s := S256x512) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S256x1024.size a
  hwx0_1 : ∀ i : grid0.Coords, EltTy.bits .f32 = 32 ∨ (Rect.block (s := S256x1024) S32x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1536.size a ≤ S256x1536.size a
  hwx0_2 : ∀ i : grid0.Coords, EltTy.bits .f32 = 32 ∨ (Rect.block (s := S256x1536) S32x1536.size (cc0_transform_2 i) (hinb0_2 i)).WholeWords (EltTy.packing .f32)

variable [Facts₀]

abbrev win0_0 : Pipeline.Window sig grid0 :=
  Pipeline.Window.ofSpec (Memref.whole main_arg0) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x1536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x512 : Shape := ⟨2, ![256, 512]⟩
abbrev S256x1024 : Shape := ⟨2, ![256, 1024]⟩
abbrev S256x512x1 : Shape := ⟨3, ![256, 512, 1]⟩
abbrev S256x1x1024 : Shape := ⟨3, ![256, 1, 1024]⟩
abbrev S256x512x1024 : Shape := ⟨3, ![256, 512, 1024]⟩
abbrev S_ : Shape := ⟨0, ![]⟩
abbrev S256x1536 : Shape := ⟨2, ![256, 1536]⟩

abbrev nBuf : Space → Nat
  | .hbm => 18
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x1024, .f32⟩
  | .hbm, ⟨2, _⟩ => ⟨S256x512x1, .f32⟩
  | .hbm, ⟨3, _⟩ => ⟨S256x1x1024, .f32⟩
  | .hbm, ⟨4, _⟩ => ⟨S256x512x1024, .f32⟩
  | .hbm, ⟨5, _⟩ => ⟨S256x512x1024, .f32⟩
  | .hbm, ⟨6, _⟩ => ⟨S256x512x1024, .f32⟩
  | .hbm, ⟨7, _⟩ => ⟨S_, .f32⟩
  | .hbm, ⟨8, _⟩ => ⟨S256x512, .f32⟩
  | .hbm, ⟨9, _⟩ => ⟨S_, .f32⟩
  | .hbm, ⟨10, _⟩ => ⟨S256x512, .f32⟩
  | .hbm, ⟨11, _⟩ => ⟨S256x512, .f32⟩
  | .hbm, ⟨12, _⟩ => ⟨S_, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1536, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S256x512_S256x512x1_0_1 : S256x512.BroadcastsInDim S256x512x1 (![0, 1] : Fin 2 → Fin S256x512x1.rank)
  bcast_S256x1024_S256x1x1024_0_2 : S256x1024.BroadcastsInDim S256x1x1024 (![0, 2] : Fin 2 → Fin S256x1x1024.rank)
  bcast_S256x512x1_S256x512x1024_0_1_2 : S256x512x1.BroadcastsInDim S256x512x1024 (![0, 1, 2] : Fin 3 → Fin S256x512x1024.rank)
  bcast_S256x1x1024_S256x512x1024_0_1_2 : S256x1x1024.BroadcastsInDim S256x512x1024 (![0, 1, 2] : Fin 3 → Fin S256x512x1024.rank)
  reducesTo_S256x512x1024_S256x512_d2 : S256x512x1024.ReducesTo [2] S256x512
  h_S_ : 0 < S_.numel
  bcast_S_S256x512 : S_.BroadcastsInDim S256x512 (![] : Fin 0 → Fin S256x512.rank)
  reducesTo_S256x512x1024_S256x1024_d1 : S256x512x1024.ReducesTo [1] S256x1024
  bcast_S_S256x1024 : S_.BroadcastsInDim S256x1024 (![] : Fin 0 → Fin S256x1024.rank)
  concatenates_S256x512_S256x1024_S256x1536_d1 : Shape.Concatenates [S256x512, S256x1024] S256x1536 1

variable [Facts₀]

class Facts : Prop extends Facts₀ where

variable [Facts]
-- ==== Proof.ScaledRowMean.lean ====
/-
  The function both programs compute, and the law that joins their two spellings of it.

  From x1 : [256, 512] and x2 : [256, 1024] the result is a [256, 1536] array whose row r is
    x1[r, i] · mean_j x2[r, j]   on lanes 0 ≤ i < 512, followed by
    x2[r, j] · mean_i x1[r, i]   on lanes 512 + j, 0 ≤ j < 1024,
  each mean being the row's sum divided by the row's length. One program forms the row's mean first and
  scales the entry by it; the other forms every product x1[r, i] · x2[r, j], sums the products along a row
  and divides the sum. The two agree because a factor that does not depend on the summation index moves out
  of a sum, (∑_k x · y_k) / c = x · ((∑_k y_k) / c), and this is where finiteness is needed: on the extended
  reals x · (a + b) = x · a + x · b fails when a and b are infinities of opposite signs (x = -1, a = +∞,
  b = -∞ gives +∞ on the left and -∞ on the right), so the law is stated for a finite factor and finite
  summands, and proved by carrying both sides into the reals.
-/
import Idealize.ShloMosaic.PureOps.Ideal
import Idealize.ShloMosaic.PureOps.Ideal.Laws
import Idealize.ShloMosaic.Lib.ValueIdx

noncomputable section

namespace CrossMean

open Idealize.ShloMosaic Idealize.ShloMosaic.ValueIdx

/-! ## The three float literals the programs spell -/

/-- The divisor of the mean over a row of x2: the pattern of 1024.0 denotes the real 1024. -/
theorem ofBits_1024 : Ideal.ofBits .f32 0x44800000#32 = ((1024 : ℝ) : EReal) := by
  simp [Ideal.ofBits, Ideal.ieee, -EReal.coe_mul]; norm_num

/-- The divisor of the mean over a row of x1: the pattern of 512.0 denotes the real 512. -/
theorem ofBits_512 : Ideal.ofBits .f32 0x44000000#32 = ((512 : ℝ) : EReal) := by
  simp [Ideal.ofBits, Ideal.ieee, -EReal.coe_mul]; norm_num

/-- The bound the precondition compares |x| with: the pattern of +inf denotes the top element. -/
theorem ofBits_inf : Ideal.ofBits .f32 0x7F800000#32 = (⊤ : EReal) := by
  simp [Ideal.ofBits, Ideal.ieee]

/-! ## A finite factor moves out of a sum of finite terms -/

/-- The inclusion of the reals into the extended reals commutes with finite sums. -/
theorem coe_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- ∑_k x · y_k = x · ∑_k y_k for a finite x and finite y_k: both sides are real, where it is distributivity. -/
theorem sum_mul_left {ι : Type*} [Fintype ι] (x : EReal) (y : ι → EReal) (hx : x ≠ ⊤ ∧ x ≠ ⊥)
    (hy : ∀ k, y k ≠ ⊤ ∧ y k ≠ ⊥) : ∑ k, x * y k = x * ∑ k, y k := by
  lift x to ℝ using hx
  lift y to ι → ℝ using hy
  simp only [← EReal.coe_mul, ← coe_sum, Finset.mul_sum]

/-- Division by a nonzero real is multiplication by its reciprocal, so it passes a factor on the left. -/
theorem div_mul_left (x s : EReal) {c : ℝ} (hc : c ≠ 0) :
    Ideal.div (x * s) (c : EReal) = x * Ideal.div s (c : EReal) := by
  rw [Ideal.div_coe hc, Ideal.div_coe hc, mul_assoc]

/-- THE LAW, factor on the left: the mean of the products x · y_k, summed from the float zero, is x times the
    mean of the y_k. -/
theorem mean_mul_left {ι : Type*} [Fintype ι] (x : EReal) (y : ι → EReal) {c : ℝ} (hc : c ≠ 0)
    (hx : x ≠ ⊤ ∧ x ≠ ⊥) (hy : ∀ k, y k ≠ ⊤ ∧ y k ≠ ⊥) :
    Ideal.div (Ideal.ofBits .f32 0x00000000#32 + ∑ k, x * y k) (c : EReal) = x * Ideal.div (∑ k, y k) (c : EReal) := by
  rw [Ideal.ofBits_zero_f32, zero_add, sum_mul_left x y hx hy, div_mul_left _ _ hc]

/-- THE LAW, factor on the right: the same with the products written y_k · x. -/
theorem mean_mul_right {ι : Type*} [Fintype ι] (x : EReal) (y : ι → EReal) {c : ℝ} (hc : c ≠ 0)
    (hx : x ≠ ⊤ ∧ x ≠ ⊥) (hy : ∀ k, y k ≠ ⊤ ∧ y k ≠ ⊥) :
    Ideal.div (Ideal.ofBits .f32 0x00000000#32 + ∑ k, y k * x) (c : EReal) = x * Ideal.div (∑ k, y k) (c : EReal) := by
  simp only [mul_comm _ x]
  exact mean_mul_left x y hc hx hy

/-! ## The result, entry by entry -/

/-- The shapes of x1, of x2 and of the result. -/
abbrev SA : Shape := ⟨2, ![256, 512]⟩
abbrev SB : Shape := ⟨2, ![256, 1024]⟩
abbrev SO : Shape := ⟨2, ![256, 1536]⟩

/-- Entry (r, l) of the result: on the first 512 lanes x1[r, l] times the mean of row r of x2, on the other
    1024 lanes x2[r, l - 512] times the mean of row r of x1. The divisors stay the float literals the programs
    spell. -/
def scaledAt (a : SA.Idx → EReal) (b : SB.Idx → EReal) (r : Fin 256) (l : Fin 1536) : EReal :=
  if h : l.val < 512 then
    a (ix2 r (⟨l.val, h⟩ : Fin 512)) * Ideal.div (∑ k : Fin 1024, b (ix2 r k)) (Ideal.ofBits .f32 0x44800000#32)
  else
    b (ix2 r (⟨l.val - 512, by have := l.isLt; omega⟩ : Fin 1024))
      * Ideal.div (∑ k : Fin 512, a (ix2 r k)) (Ideal.ofBits .f32 0x44000000#32)

/-- The whole result array as one function of the two argument arrays. -/
def scaled (a : SA.Idx → EReal) (b : SB.Idx → EReal) : SO.Idx → EReal :=
  fun i => scaledAt a b ⟨(i 0).val, idx2_lt0 i⟩ ⟨(i 1).val, idx2_lt1 i⟩

theorem scaled_ix2 (a : SA.Idx → EReal) (b : SB.Idx → EReal) (r : Fin 256) (l : Fin 1536) :
    scaled a b (ix2 r l) = scaledAt a b r l := rfl

theorem scaledAt_lo (a : SA.Idx → EReal) (b : SB.Idx → EReal) (r : Fin 256) (l : Fin 1536) (h : l.val < 512) :
    scaledAt a b r l
      = a (ix2 r (⟨l.val, h⟩ : Fin 512)) * Ideal.div (∑ k : Fin 1024, b (ix2 r k)) (Ideal.ofBits .f32 0x44800000#32) := by
  unfold scaledAt; rw [dif_pos h]

theorem scaledAt_hi (a : SA.Idx → EReal) (b : SB.Idx → EReal) (r : Fin 256) (l : Fin 1536) (h : ¬ l.val < 512) :
    scaledAt a b r l
      = b (ix2 r (⟨l.val - 512, by have := l.isLt; omega⟩ : Fin 1024))
        * Ideal.div (∑ k : Fin 512, a (ix2 r k)) (Ideal.ofBits .f32 0x44000000#32) := by
  unfold scaledAt; rw [dif_neg h]

end CrossMean

end
-- ==== Proof.FiniteEntries.lean ====
/-
  Under the precondition every entry of both inputs is a real number.

  The precondition is one bit: the conjunction of two tests, one per input, each the conjunction over all
  entries x of the input of |x| < +∞. Read backwards: the bit is 1, so both tests are 1; a conjunction over an
  array is 1 only if every entry's bit is 1; an entry's bit is the comparison max(x, -x) < ⊤ on the extended
  reals; and max(x, -x) is ⊤ exactly when x is ⊤ or ⊥. So every entry is neither ⊤ nor ⊥.
-/
import proofs.«156159_j11682311045657_2_alg».proof.Pre_finite_inputs
import proofs.«156159_j11682311045657_2_alg».proof.Proof.ScaledRowMean
import Idealize.ShloMosaic.Lib.ReduceAll
import Idealize.ShloMosaic.Lib.ValueIdx
import Idealize.ShloMosaic.PureOps.Ideal.Laws

noncomputable section

namespace Cert.Pre_finite_inputs.Finite

open Idealize.ShloMosaic Cert.Pre_finite_inputs

variable [Facts]

/-- The scalar shape has one index. -/
instance : Subsingleton S_.Idx := ⟨fun a b => funext fun d => d.elim0⟩

/-- An extended real whose absolute value compares below ⊤ is neither ⊤ nor ⊥. -/
theorem ne_top_bot_of_abs_lt (x : EReal) (h : Ideal.cmp .olt (max x (-x)) (⊤ : EReal) = 1#1) :
    x ≠ ⊤ ∧ x ≠ ⊥ := by
  have hlt : max x (-x) < ⊤ := by
    by_contra hn
    simp [Ideal.cmp, hn] at h
  constructor
  · rintro rfl; simp at hlt
  · rintro rfl; simp at hlt

/-- One input's test: if the conjunction over all entries of |x| < +∞ is 1, every entry is finite. -/
theorem all_finite {n0 n1 : ℕ} (x : FVec Ideal ⟨2, ![n0, n1]⟩ .f32)
    (hb : S_.BroadcastsInDim ⟨2, ![n0, n1]⟩ (![] : Fin 0 → Fin 2))
    (hr : (⟨2, ![n0, n1]⟩ : Shape).ReducesTo [0, 1] S_) (hu : 0 < S_.numel)
    (e : Host.reduce IntOp.andi
        (cmpf (F := Ideal) CmpFPredicate.olt (Host.absf x)
          (broadcastInDim ⟨2, ![n0, n1]⟩ ![] hb (constant (F := Ideal) S_ .f32 0x7F800000#32)))
        (constantI S_ 1 1#1) hr hu ValueIdx.ix0 = 1#1) (i : (⟨2, ![n0, n1]⟩ : Shape).Idx) : x i ≠ ⊤ ∧ x i ≠ ⊥ := by
  have hi := Host.reduce_andi_all _ _ hr hu ValueIdx.ix0 e i
  refine ne_top_bot_of_abs_lt (x i) ?_
  rw [← CrossMean.ofBits_inf]
  exact hi

/-- The precondition gives finiteness of every entry of x1 and of x2. -/
theorem entries_finite (x1 : FVec Ideal S256x512 .f32) (x2 : FVec Ideal S256x1024 .f32)
    (h : fn (F := Ideal) x1 x2 = fun _ => 1#1) :
    (∀ i, x1 i ≠ ⊤ ∧ x1 i ≠ ⊥) ∧ (∀ i, x2 i ≠ ⊤ ∧ x2 i ≠ ⊥) := by
  have h0 := congrFun h ValueIdx.ix0
  dsimp only [fn] at h0
  obtain ⟨ha, hb⟩ := IntOp.andi_eq_one.1 h0
  exact ⟨fun i => all_finite x1 _ _ _ ha i, fun i => all_finite x2 _ _ _ hb i⟩

end Cert.Pre_finite_inputs.Finite

end
-- ==== Proof.ReferenceRows.lean ====
/-
  The reference's result is the specified array.

  The reference spreads x1 and x2 over a common [256, 512, 1024] box, multiplies entry by entry, sums the box
  along its last axis and divides by 1024 (the first 512 lanes of the result), sums it along its middle axis and
  divides by 512 (the other 1024 lanes), and joins the two pieces along the lanes. Read at an index:
    lanes l < 512      (0 + ∑_k x1[r, l] · x2[r, k]) / 1024,
    lanes 512 + j      (0 + ∑_k x1[r, k] · x2[r, j]) / 512.
  In the first sum x1[r, l] does not depend on k, in the second x2[r, j] does not: for finite inputs each
  factor moves out of its sum and past the division, which leaves the specified entry.
-/
import proofs.«156159_j11682311045657_2_alg».proof.Proof.Gen.ReferenceIdeal.Read
import proofs.«156159_j11682311045657_2_alg».proof.Proof.ScaledRowMean
import Idealize.ShloMosaic.Lib.Pipeline.Value
import Idealize.ShloMosaic.Lib.ValueIdx

noncomputable section

namespace Cert.ReferenceIdeal.RowMeans

open Cert.ReferenceIdeal Cert.ReferenceIdeal.Gen Cert.ReferenceIdeal.Read
open Idealize.ShloMosaic Idealize.ShloMosaic.ValueIdx

/-- The first piece, the sums along the last axis divided by 1024, at (r, l): the specified entry. -/
theorem lanes_lo (x0 : FVec Ideal S256x512 .f32) (x1 : FVec Ideal S256x1024 .f32)
    (h0 : ∀ i, x0 i ≠ ⊤ ∧ x0 i ≠ ⊥) (h1 : ∀ i, x1 i ≠ ⊤ ∧ x1 i ≠ ⊥) (r : Fin 256) (l : Fin 512) :
    val_main_v7 (F := Ideal) x0 x1 (ix2 r l)
      = x0 (ix2 r l) * Ideal.div (∑ k : Fin 1024, x1 (ix2 r k)) (Ideal.ofBits .f32 0x44800000#32) := by
  have e0 : ∀ k : Fin 1024, idx_main_v0 (idx_main_v2 (idx_main_v5 (ix2 r l) k)) = ix2 r l := fun k =>
    funext fun a => Fin.ext (by match a with | ⟨0, _⟩ => rfl | ⟨1, _⟩ => rfl)
  have e1 : ∀ k : Fin 1024, idx_main_v1 (idx_main_v3 (idx_main_v5 (ix2 r l) k)) = ix2 r k := fun k =>
    funext fun a => Fin.ext (by match a with | ⟨0, _⟩ => rfl | ⟨1, _⟩ => rfl)
  rw [val_main_v7_apply, val_main_v5_apply, val_main_v6_apply, val_main_cst_0_apply, val_main_cst_apply]
  simp only [val_main_v4_apply, val_main_v2_apply, val_main_v3_apply, val_main_v0_apply, val_main_v1_apply, e0, e1,
    Ideal.mulf_def, Ideal.hostDivf_def, Ideal.ofBits_def]
  rw [CrossMean.ofBits_1024]
  exact CrossMean.mean_mul_left (x0 (ix2 r l)) (fun k : Fin 1024 => x1 (ix2 r k)) (by norm_num) (h0 _) (fun k => h1 _)

/-- The second piece, the sums along the middle axis divided by 512, at (r, j): the specified entry. -/
theorem lanes_hi (x0 : FVec Ideal S256x512 .f32) (x1 : FVec Ideal S256x1024 .f32)
    (h0 : ∀ i, x0 i ≠ ⊤ ∧ x0 i ≠ ⊥) (h1 : ∀ i, x1 i ≠ ⊤ ∧ x1 i ≠ ⊥) (r : Fin 256) (j : Fin 1024) :
    val_main_v10 (F := Ideal) x0 x1 (ix2 r j)
      = x1 (ix2 r j) * Ideal.div (∑ k : Fin 512, x0 (ix2 r k)) (Ideal.ofBits .f32 0x44000000#32) := by
  have e0 : ∀ k : Fin 512, idx_main_v0 (idx_main_v2 (idx_main_v8 (ix2 r j) k)) = ix2 r k := fun k =>
    funext fun a => Fin.ext (by match a with | ⟨0, _⟩ => rfl | ⟨1, _⟩ => rfl)
  have e1 : ∀ k : Fin 512, idx_main_v1 (idx_main_v3 (idx_main_v8 (ix2 r j) k)) = ix2 r j := fun k =>
    funext fun a => Fin.ext (by match a with | ⟨0, _⟩ => rfl | ⟨1, _⟩ => rfl)
  rw [val_main_v10_apply, val_main_v8_apply, val_main_v9_apply, val_main_cst_2_apply, val_main_cst_1_apply]
  simp only [val_main_v4_apply, val_main_v2_apply, val_main_v3_apply, val_main_v0_apply, val_main_v1_apply, e0, e1,
    Ideal.mulf_def, Ideal.hostDivf_def, Ideal.ofBits_def]
  rw [CrossMean.ofBits_512]
  exact CrossMean.mean_mul_right (x1 (ix2 r j)) (fun k : Fin 512 => x0 (ix2 r k)) (by norm_num) (h1 _) (fun k => h0 _)

/-- The joined result is the specified array: an index on the first 512 lanes falls in the first piece at the
    same coordinates, one further on in the second piece 512 lanes back. -/
theorem result_eq (x0 : FVec Ideal S256x512 .f32) (x1 : FVec Ideal S256x1024 .f32)
    (h0 : ∀ i, x0 i ≠ ⊤ ∧ x0 i ≠ ⊥) (h1 : ∀ i, x1 i ≠ ⊤ ∧ x1 i ≠ ⊥) :
    val_main_v11 (F := Ideal) x0 x1 = CrossMean.scaled x0 x1 := by
  funext i
  obtain ⟨r, l, rfl⟩ : ∃ (r : Fin 256) (l : Fin 1536), i = ix2 r l := ⟨i 0, i 1, eq_ix2 i⟩
  rw [CrossMean.scaled_ix2]
  unfold val_main_v11
  by_cases h : l.val < 512
  · rw [CrossMean.scaledAt_lo _ _ _ _ h]
    refine (concatenate_pair_apply_left (1 : Fin 2) (val_main_v7 (F := Ideal) x0 x1) (val_main_v10 (F := Ideal) x0 x1)
      concatenates_S256x512_S256x1024_S256x1536_d1 (ix2 r l) rfl (ix2 r (⟨l.val, h⟩ : Fin 512))
      (fun b => by match b with | ⟨0, _⟩ => rfl | ⟨1, _⟩ => rfl)).trans ?_
    exact lanes_lo x0 x1 h0 h1 r ⟨l.val, h⟩
  · rw [CrossMean.scaledAt_hi _ _ _ _ h]
    have hl : l.val - 512 < 1024 := by have := l.isLt; omega
    refine (concatenate_pair_apply_right (1 : Fin 2) (val_main_v7 (F := Ideal) x0 x1) (val_main_v10 (F := Ideal) x0 x1)
      concatenates_S256x512_S256x1024_S256x1536_d1 (ix2 r l) rfl rfl (ix2 r (⟨l.val - 512, hl⟩ : Fin 1024))
      (fun b hb => by
        match b with
        | ⟨0, _⟩ => rfl
        | ⟨1, _⟩ => exact absurd rfl hb)
      (by show l.val - 512 + 512 = l.val; omega)).trans ?_
    exact lanes_hi x0 x1 h0 h1 r ⟨l.val - 512, hl⟩

end Cert.ReferenceIdeal.RowMeans

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.BlockRows.lean ====
/-
  What one grid point leaves in its output block.

  At a grid point the body holds 32 rows of x1 (a [32, 512] block u) and the same 32 rows of x2 (a [32, 1024]
  block v), and fills a [32, 1536] block with two stores: lanes 0–511 with u scaled row by row by the mean of
  the same row of v, lanes 512–1535 with v scaled row by row by the mean of the same row of u. A row's mean is
  its lane sum, kept as a column, divided by the row's length, and the column is spread back over the lanes
  before the product. So at (p, q)
    the first store's value is   u[p, q] · ((∑_k v[p, k]) / 1024),
    the second store's value is  v[p, q] · ((∑_k u[p, k]) / 512),
  and the block is one function of its index: the first value on lanes below 512, the second, read 512 lanes
  back, from there on. The two stores' rectangles tile the block, so what the body leaves is that function.
-/
import proofs.«156159_j11682311045657_2_alg».proof.Proof.Gen.KernelIdeal.Frame
import proofs.«156159_j11682311045657_2_alg».proof.Proof.LibKeepdims
import Idealize.ShloMosaic.PureOps.Ideal
import Idealize.ShloMosaic.Lib.Pipeline.Value
import Idealize.ShloMosaic.Lib.ValueIdx
import Idealize.ShloMosaic.Lib.Tactic

noncomputable section

namespace Cert.KernelIdeal.RowBlock

open Cert.KernelIdeal Cert.KernelIdeal.Gen
open Idealize.ShloMosaic Idealize.ShloMosaic.TcCoe Idealize.SL.Sem Idealize.ShloMosaic.ValueIdx

theorem hz : (![0, 0] : Fin 2 → Nat) = fun _ => 0 := funext fun a => by fin_cases a <;> rfl

/-! ## The two stored values at an index -/

/-- The first store's value at (p, q): u[p, q] times the mean of row p of v. -/
theorem scaledByMeanOfV (u : Vec Ideal S32x512 .f32) (v : Vec Ideal S32x1024 .f32) (p : Fin 32) (q : Fin 512) :
    k0_pay1 (F := Ideal) u v (ix2 p q)
      = u (ix2 p q) * Ideal.div (∑ k : Fin 1024, v (ix2 p k)) (Ideal.ofBits .f32 0x44800000#32) := by
  unfold k0_pay1
  dsimp only
  refine (mulf_apply _ _ _).trans ?_
  refine congrArg (u (ix2 p q) * ·) ?_
  refine (Keepdims.broadcastTo_a1_ab_apply (a := 32) (b := 512) _ _ p q).trans ?_
  refine (divf_apply _ _ _).trans ?_
  refine congrArg (Ideal.div · (Ideal.ofBits .f32 0x44800000#32)) ?_
  refine (Keepdims.shapeCast_a_a1_apply (a := 32) _ _ p 0).trans ?_
  exact Keepdims.laneSum_apply (a := 32) (b := 1024) v _ _ _ p

/-- The second store's value at (p, q): v[p, q] times the mean of row p of u. -/
theorem scaledByMeanOfU (u : Vec Ideal S32x512 .f32) (v : Vec Ideal S32x1024 .f32) (p : Fin 32) (q : Fin 1024) :
    k0_pay2 (F := Ideal) u v (ix2 p q)
      = v (ix2 p q) * Ideal.div (∑ k : Fin 512, u (ix2 p k)) (Ideal.ofBits .f32 0x44000000#32) := by
  unfold k0_pay2
  dsimp only
  refine (mulf_apply _ _ _).trans ?_
  refine congrArg (v (ix2 p q) * ·) ?_
  refine (Keepdims.broadcastTo_a1_ab_apply (a := 32) (b := 1024) _ _ p q).trans ?_
  refine (divf_apply _ _ _).trans ?_
  refine congrArg (Ideal.div · (Ideal.ofBits .f32 0x44000000#32)) ?_
  refine (Keepdims.shapeCast_a_a1_apply (a := 32) _ _ p 0).trans ?_
  exact Keepdims.laneSum_apply (a := 32) (b := 512) u _ _ _ p

/-! ## The block as one function of its index -/

/-- The [32, 1536] block the body leaves: the first store's value on lanes below 512, the second's, read 512
    lanes back, on the others. -/
def rowBlock (u : Vec Ideal S32x512 .f32) (v : Vec Ideal S32x1024 .f32) : Vec Ideal S32x1536 .f32 := fun y =>
  if h : (y 1).val < 512 then
    k0_pay1 (F := Ideal) u v (ix2 (⟨(y 0).val, idx2_lt0 y⟩ : Fin 32) (⟨(y 1).val, h⟩ : Fin 512))
  else
    k0_pay2 (F := Ideal) u v
      (ix2 (⟨(y 0).val, idx2_lt0 y⟩ : Fin 32) (⟨(y 1).val - 512, by have := idx2_lt1 y; omega⟩ : Fin 1024))

theorem rowBlock_lo (u : Vec Ideal S32x512 .f32) (v : Vec Ideal S32x1024 .f32) (y : S32x1536.Idx) (h : (y 1).val < 512) :
    rowBlock u v y = k0_pay1 (F := Ideal) u v (ix2 (⟨(y 0).val, idx2_lt0 y⟩ : Fin 32) (⟨(y 1).val, h⟩ : Fin 512)) := by
  unfold rowBlock; exact dif_pos h

theorem rowBlock_hi (u : Vec Ideal S32x512 .f32) (v : Vec Ideal S32x1024 .f32) (y : S32x1536.Idx) (h : ¬ (y 1).val < 512) :
    rowBlock u v y = k0_pay2 (F := Ideal) u v
      (ix2 (⟨(y 0).val, idx2_lt0 y⟩ : Fin 32) (⟨(y 1).val - 512, by have := idx2_lt1 y; omega⟩ : Fin 1024)) := by
  unfold rowBlock; exact dif_neg h

/-- Under the first store's rectangle (32 rows, lanes 0–511) the block is the first store's value. -/
theorem rowBlock_firstStore (u : Vec Ideal S32x512 .f32) (v : Vec Ideal S32x1024 .f32)
    (inb : ∀ a, (![0, 0] : Fin 2 → Nat) a + S32x512.size a ≤ S32x1536.size a) (x : S32x512.Idx) :
    rowBlock u v ((Rect.unit (s := S32x1536) ![0, 0] S32x512.size inb).emb x) = k0_pay1 (F := Ideal) u v x := by
  have h1 : (x 1).val < 512 := idx2_lt1 x
  have h : (((Rect.unit (s := S32x1536) ![0, 0] S32x512.size inb).emb x) 1).val < 512 := by
    show 0 + 1 * (x 1).val < 512; omega
  rw [rowBlock_lo u v _ h]
  refine congrArg (k0_pay1 (F := Ideal) u v) (funext fun a => Fin.ext ?_)
  match a with
  | ⟨0, _⟩ => show 0 + 1 * (x 0).val = (x 0).val; omega
  | ⟨1, _⟩ => show 0 + 1 * (x 1).val = (x 1).val; omega

/-- Under the second store's rectangle (32 rows, lanes 512–1535) the block is the second store's value. -/
theorem rowBlock_secondStore (u : Vec Ideal S32x512 .f32) (v : Vec Ideal S32x1024 .f32)
    (inb : ∀ a, (![0, 512] : Fin 2 → Nat) a + S32x1024.size a ≤ S32x1536.size a) (x : S32x1024.Idx) :
    rowBlock u v ((Rect.unit (s := S32x1536) ![0, 512] S32x1024.size inb).emb x) = k0_pay2 (F := Ideal) u v x := by
  have h : ¬ (((Rect.unit (s := S32x1536) ![0, 512] S32x1024.size inb).emb x) 1).val < 512 := by
    show ¬ (512 + 1 * (x 1).val < 512); omega
  rw [rowBlock_hi u v _ h]
  refine congrArg (k0_pay2 (F := Ideal) u v) (funext fun a => Fin.ext ?_)
  match a with
  | ⟨0, _⟩ => show 0 + 1 * (x 0).val = (x 0).val; omega
  | ⟨1, _⟩ => show 512 + 1 * (x 1).val - 512 = (x 1).val; omega

/-! ## What the body leaves is that function -/

/-- The contents the body's two stores leave in the output's staging buffer, from input blocks u and v: the
    stores' rectangles tile the block and each stored value is the block function under its rectangle. -/
theorem out_eq (c : Dev nD) (i : grid0.Coords) (a1 : Memref sig .tc .vmem S32x512 .f32) (h1 : a1.IsWhole)
    (a2 : Memref sig .tc .vmem S32x1024 .f32) (h2 : a2.IsWhole) (a3 : Memref sig .tc .vmem S32x1536 .f32) (h3 : a3.IsWhole)
    (u : Vec Ideal S32x512 .f32) (v : Vec Ideal S32x1024 .f32) :
    out0_A_2 (F := Ideal) c i a1 h1 a2 h2 a3 h3 u v = rowBlock u v := by
  unfold out0_A_2
  rw [View.read_writes_eq_canon _ _ _ (cover0_A_2 c i a1 h1 a2 h2 a3 h3 u v)]
  funext y
  refine View.canon_apply_of_pieces (rowBlock u v) _ ?_ y (cover0_A_2 c i a1 h1 a2 h2 a3 h3 u v y)
  unfold kernelRun0_A
  dsimp only
  sl_unfold_words
  simp only [View.readAt_eq_ld, h1.read_unread, h2.read_unread, View.ld_unit_zero (S := S32x512) hz,
    View.ld_unit_zero (S := S32x1024) hz]
  intro p hp x
  simp only [List.mem_cons, List.not_mem_nil, or_false] at hp
  rcases hp with rfl | rfl
  · exact (rowBlock_secondStore u v inb_S32x1536_S32x1024_0_512 x).symm
  · exact (rowBlock_firstStore u v inb_S32x1536_S32x512_0_0 x).symm

end Cert.KernelIdeal.RowBlock

end
-- ==== Proof.ArrayRows.lean ====
/-
  The kernel's result array is the specified array.

  The grid has eight points; point t holds rows 32 t … 32 t + 31 of x1, of x2 and of the result, every lane of
  each (block index (t, 0) in all three windows). So the blocks u and v the body sees at point t are those rows
  of the arguments, what it leaves at (p, l) of its output block is the specified entry at row 32 t + p, lane l,
  and the eight output blocks tile the result array: row i lies in the block of point i / 32.
-/
import proofs.«156159_j11682311045657_2_alg».proof.Proof.Gen.KernelIdeal.Value
import proofs.«156159_j11682311045657_2_alg».proof.Proof.BlockRows
import proofs.«156159_j11682311045657_2_alg».proof.Proof.ScaledRowMean
import Idealize.ShloMosaic.Lib.Pipeline.Value
import Idealize.ShloMosaic.Lib.ValueIdx

noncomputable section

namespace Cert.KernelIdeal.RowArray

open Cert.KernelIdeal Cert.KernelIdeal.Gen Cert.KernelIdeal.RowBlock
open Idealize.ShloMosaic Idealize.ShloMosaic.TcCoe Idealize.SL.Sem Idealize.ShloMosaic.ValueIdx
open Idealize.ShloMosaic.Pipeline (Dat)

/-! ## One point, over plain arrays -/

/-- If u is rows 32 T … 32 T + 31 of a and v the same rows of b, the block the body leaves holds at j the
    specified entry at the array index i with row 32 T + j₀ and lane j₁: the row sums run over the same
    entries, and the scaled entry is the same entry. -/
theorem point_eq (a : CrossMean.SA.Idx → EReal) (b : CrossMean.SB.Idx → EReal)
    (u : Vec Ideal S32x512 .f32) (v : Vec Ideal S32x1024 .f32) (T : ℕ) (hT : T < 8)
    (hu : ∀ (p : Fin 32) (q : Fin 512), u (ix2 p q) = a (ix2 (⟨32 * T + p.val, by have := p.isLt; omega⟩ : Fin 256) q))
    (hv : ∀ (p : Fin 32) (q : Fin 1024), v (ix2 p q) = b (ix2 (⟨32 * T + p.val, by have := p.isLt; omega⟩ : Fin 256) q))
    (j : S32x1536.Idx) (i : CrossMean.SO.Idx) (hi0 : (i 0).val = 32 * T + (j 0).val) (hi1 : (i 1).val = (j 1).val) :
    rowBlock u v j = CrossMean.scaled a b i := by
  obtain ⟨p, l, rfl⟩ : ∃ (p : Fin 32) (l : Fin 1536), j = ix2 p l := ⟨j 0, j 1, eq_ix2 j⟩
  have hrow : 32 * T + p.val < 256 := by have := p.isLt; omega
  obtain ⟨r, l', rfl⟩ : ∃ (r : Fin 256) (l' : Fin 1536), i = ix2 r l' := ⟨i 0, i 1, eq_ix2 i⟩
  obtain rfl : r = ⟨32 * T + p.val, hrow⟩ := Fin.ext hi0
  obtain rfl : l = l' := (Fin.ext hi1).symm
  rw [CrossMean.scaled_ix2]
  by_cases h : l.val < 512
  · rw [rowBlock_lo u v _ h, CrossMean.scaledAt_lo _ _ _ _ h]
    refine (scaledByMeanOfV u v p ⟨l.val, h⟩).trans ?_
    rw [hu]
    simp only [hv]
  · rw [rowBlock_hi u v _ h, CrossMean.scaledAt_hi _ _ _ _ h]
    refine (scaledByMeanOfU u v p ⟨l.val - 512, by have := l.isLt; omega⟩).trans ?_
    rw [hv]
    simp only [hu]

/-! ## The windows -/

variable (m : (ℓ : Loc nD τ sig) → Buf (Elt Ideal) ℓ) (ρ : Dev nD → PrngReg)

/-- The printed index maps, decided over the eight points: every window's block index at point t is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 8 := by
  have hN : cfg0.N = 8 := N_0
  have := t.isLt; omega

/-- The block of x1 the body sees at point t: rows 32 t + p of the argument array. -/
theorem x1Block_apply (c : Dev nD) (t : Fin cfg0.N) (p : Fin 32) (q : Fin 512) :
    (iblk m c 0 t : Vec Ideal S32x512 .f32) (ix2 p q)
      = V m c main_arg0 (ix2 (⟨32 * t.val + p.val, by have := point_lt t; have := p.isLt; omega⟩ : Fin 256) q) := by
  obtain ⟨e0, e1, -, -, -, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 32 + 1 * p.val = 32 * t.val + p.val; omega
  | ⟨1, _⟩ => show win0_0.index t (1 : Fin 2) * 512 + 1 * q.val = q.val; omega

/-- The block of x2 the body sees at point t: rows 32 t + p of the argument array. -/
theorem x2Block_apply (c : Dev nD) (t : Fin cfg0.N) (p : Fin 32) (q : Fin 1024) :
    (iblk m c 1 t : Vec Ideal S32x1024 .f32) (ix2 p q)
      = V m c main_arg1 (ix2 (⟨32 * t.val + p.val, by have := point_lt t; have := p.isLt; omega⟩ : Fin 256) q) := by
  obtain ⟨-, -, e0, e1, -, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 32 + 1 * p.val = 32 * t.val + p.val; omega
  | ⟨1, _⟩ => show win0_1.index t (1 : Fin 2) * 1024 + 1 * q.val = q.val; omega

/-- What point t writes back is block t of the specified array of the arguments. -/
theorem flushed_eq (c : Dev nD) (t : Fin cfg0.N) :
    (dats m 0 c).flushed 2 t
      = ((cfg0.win 2).blk t).view.read (Elt Ideal) (CrossMean.scaled (V m c main_arg0) (V m c main_arg1)) := by
  rw [Cert.KernelIdeal.Value.flushed2_A,
    RowBlock.out_eq c (grid0.coords t) (ms0_0 t) (hs0_0 t) (ms0_1 t) (hs0_1 t) (ms0_2 t) (hs0_2 t) (iblk m c 0 t) (iblk m c 1 t)]
  obtain ⟨-, -, -, -, e0, e1⟩ := idx_facts t
  funext j
  show rowBlock (iblk m c 0 t) (iblk m c 1 t) j
    = CrossMean.scaled (V m c main_arg0) (V m c main_arg1) (((cfg0.win 2).blk t).view.emb j)
  refine point_eq (V m c main_arg0) (V m c main_arg1) (iblk m c 0 t) (iblk m c 1 t) t.val (point_lt t)
    (x1Block_apply m c t) (x2Block_apply m c t) j _ ?_ ?_
  · show win0_2.index t (0 : Fin 2) * 32 + 1 * (j 0).val = 32 * t.val + (j 0).val; omega
  · show win0_2.index t (1 : Fin 2) * 1536 + 1 * (j 1).val = (j 1).val; omega

/-- Every index of the result array is in some point's block: row i₀ in the block of point i₀ / 32. -/
theorem cover (i : S256x1536.Idx) :
    ∃ t : Fin cfg0.N, (cfg0.win 2).flush t = true ∧ i ∈ ((cfg0.win 2).blk t).view.set := by
  have hN : cfg0.N = 8 := N_0
  have hi0 : (i 0).val < 256 := (i 0).isLt
  have hi1 : (i 1).val < 1536 := (i 1).isLt
  obtain ⟨t, ht⟩ : ∃ t : Fin cfg0.N, t.val = (i 0).val / 32 := ⟨⟨(i 0).val / 32, by omega⟩, rfl⟩
  obtain ⟨-, -, -, -, e0, e1⟩ := idx_facts t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 32 ≤ (i 0).val ∧ (i 0).val < win0_2.index t (0 : Fin 2) * 32 + 32
    omega
  | ⟨1, _⟩ =>
    show win0_2.index t (1 : Fin 2) * 1536 ≤ (i 1).val ∧ (i 1).val < win0_2.index t (1 : Fin 2) * 1536 + 1536
    omega

/-- So after the run the result array is the specified array of the arguments. -/
theorem final (c : Dev nD) :
    (dats m 0 c).arrAt 2 cfg0.N = CrossMean.scaled (V m c main_arg0) (V m c main_arg1) :=
  (dats m 0 c).arrAt_eq_of_cover 2 _ (fun t _ => flushed_eq m c t) (fun i => cover i)

/-- The kernel's run, read: the result array at the specified array of the launch contents of the arguments,
    the arguments unchanged. -/
theorem run : θ_run defs (onTc (τ := τ) (main (F := Ideal))) ⟨m, fun _ => 0, ρ⟩ fun r => ∀ c : Dev nD,
      r.2.mem ((c : Thread nD τ).loc main_v0)
        = CrossMean.scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.RowArray

end
-- ==== Proof.lean ====
/- Two programs against each other: from x1 : [256, 512] and x2 : [256, 1024] both produce the [256, 1536] array
   whose row r is x1[r, ·] scaled by the mean of x2[r, ·], followed by x2[r, ·] scaled by the mean of x1[r, ·].
   The kernel forms each row's mean first (lane sum, divided by the row's length) and multiplies; the reference
   forms every product x1[r, i] · x2[r, j], sums the products along one axis and divides the sum. On the extended
   reals the two agree for finite inputs, where a factor that does not depend on the summation index moves out
   of the sum and past the division by a nonzero real (Proof/ScaledRowMean.lean); at an infinity they need not,
   so the equality uses the precondition (Proof/FiniteEntries.lean: every entry is a real number).
   The pieces: what one grid point leaves in its output block (Proof/BlockRows.lean, over the column-vector
   readings of Proof/LibKeepdims.lean), the eight blocks as the whole result array (Proof/ArrayRows.lean), the
   reference's stages read at an index (Proof/ReferenceRows.lean). The three frames are the programs' runs with
   the result dropped; the idealization rewrote nothing, so what it preserves is trivially true. -/
import proofs.«156159_j11682311045657_2_alg».proof.Defs
import proofs.«156159_j11682311045657_2_alg».proof.Proof.Gen.Kernel
import proofs.«156159_j11682311045657_2_alg».proof.Proof.Gen.Kernel.Skeleton
import proofs.«156159_j11682311045657_2_alg».proof.Proof.Gen.Kernel.Launch
import proofs.«156159_j11682311045657_2_alg».proof.Proof.Gen.Kernel.Points
import proofs.«156159_j11682311045657_2_alg».proof.Proof.Gen.Kernel.Frame
import proofs.«156159_j11682311045657_2_alg».proof.Proof.Gen.KernelIdeal
import proofs.«156159_j11682311045657_2_alg».proof.Proof.Gen.KernelIdeal.Skeleton
import proofs.«156159_j11682311045657_2_alg».proof.Proof.Gen.KernelIdeal.Launch
import proofs.«156159_j11682311045657_2_alg».proof.Proof.Gen.KernelIdeal.Points
import proofs.«156159_j11682311045657_2_alg».proof.Proof.Gen.KernelIdeal.Frame
import proofs.«156159_j11682311045657_2_alg».proof.Proof.Gen.ReferenceIdeal
import proofs.«156159_j11682311045657_2_alg».proof.Proof.Gen.Pre_finite_inputs
import proofs.«156159_j11682311045657_2_alg».proof.Proof.Gen.KernelIdeal.Value
import proofs.«156159_j11682311045657_2_alg».proof.Proof.Gen.ReferenceIdeal.Run
import proofs.«156159_j11682311045657_2_alg».proof.Proof.Gen.ReferenceIdeal.Read
import proofs.«156159_j11682311045657_2_alg».proof.Proof.ScaledRowMean
import proofs.«156159_j11682311045657_2_alg».proof.Proof.FiniteEntries
import proofs.«156159_j11682311045657_2_alg».proof.Proof.ReferenceRows
import proofs.«156159_j11682311045657_2_alg».proof.Proof.ArrayRows
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- From memories that agree on x1 and x2, finite by the precondition, both programs end with the specified
    array: the kernel's result array is it outright, the reference's is it because each scaled entry's factor
    moves out of its row's sum. -/
theorem algebraic : Cert.algebraic_KernelIdeal_ReferenceIdeal := by
  intro m ρ m' ρ' hpre hagree
  refine ⟨fun c => CrossMean.scaled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RowArray.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1⟩ := Cert.Pre_finite_inputs.Finite.entries_finite _ _ (hpre c)
  rw [Cert.ReferenceIdeal.Read.val_main_v11_eq, (hagree c).1, (hagree c).2]
  exact Cert.ReferenceIdeal.RowMeans.result_eq _ _ f0 f1

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
